-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000x1 : Shape := ⟨2, ![4000000, 1]⟩
abbrev S4000000x2 : Shape := ⟨2, ![4000000, 2]⟩
abbrev S20x1 : Shape := ⟨2, ![20, 1]⟩
abbrev S20 : Shape := ⟨1, ![20]⟩
abbrev S20x20 : Shape := ⟨2, ![20, 20]⟩
abbrev S2x20 : Shape := ⟨2, ![2, 20]⟩
abbrev S2 : Shape := ⟨1, ![2]⟩
abbrev S_ : Shape := ⟨0, ![]⟩

class Facts : Prop where
  bcast_S_S4000000x1 : S_.BroadcastsInDim S4000000x1 (![] : Fin 0 → Fin S4000000x1.rank)
  reducesTo_S4000000x1_S_d0_1 : S4000000x1.ReducesTo [0, 1] S_
  h_S_ : 0 < S_.numel
  bcast_S_S4000000x2 : S_.BroadcastsInDim S4000000x2 (![] : Fin 0 → Fin S4000000x2.rank)
  reducesTo_S4000000x2_S_d0_1 : S4000000x2.ReducesTo [0, 1] S_
  bcast_S_S20x1 : S_.BroadcastsInDim S20x1 (![] : Fin 0 → Fin S20x1.rank)
  reducesTo_S20x1_S_d0_1 : S20x1.ReducesTo [0, 1] S_
  bcast_S_S20 : S_.BroadcastsInDim S20 (![] : Fin 0 → Fin S20.rank)
  reducesTo_S20_S_d0 : S20.ReducesTo [0] S_
  bcast_S_S20x20 : S_.BroadcastsInDim S20x20 (![] : Fin 0 → Fin S20x20.rank)
  reducesTo_S20x20_S_d0_1 : S20x20.ReducesTo [0, 1] S_
  bcast_S_S2x20 : S_.BroadcastsInDim S2x20 (![] : Fin 0 → Fin S2x20.rank)
  reducesTo_S2x20_S_d0_1 : S2x20.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg7 : FVec F S2 .f32) (main_v33 : IVec S_ 1) : IVec S_ 1 :=
  let main_v34 : FVec F S2 .f32 := Host.absf main_arg7
  let main_cst_12 : FVec F S_ .f32 := constant S_ .f32 0x7F800000#32
  let main_v35 : FVec F S2 .f32 := broadcastInDim S2 ![] bcast_S_S2 main_cst_12
  let main_v36 : IVec S2 1 := cmpf .olt main_v34 main_v35
  let main_c_13 : IVec S_ 1 := constantI S_ 1 1#1
  let main_v37 : IVec S_ 1 := (fun x v => Host.reduce IntOp.andi x v reducesTo_S2_S_d0 h_S_) main_v36 main_c_13
  let main_v38 : IVec S_ 1 := andi main_v33 main_v37
  main_v38

def fn_part1 {F : FTy → Type} [FloatOps F] (main_arg4 : FVec F S20x20 .f32) (main_arg5 : FVec F S20 .f32) (main_arg6 : FVec F S2x20 .f32) (main_arg7 : FVec F S2 .f32) (main_v13 : IVec S_ 1) (main_v16 : IVec S20 1) : IVec S_ 1 :=
  let main_c_5 : IVec S_ 1 := constantI S_ 1 1#1
  let main_v17 : IVec S_ 1 := (fun x v => Host.reduce IntOp.andi x v reducesTo_S20_S_d0 h_S_) main_v16 main_c_5
  let main_v18 : IVec S_ 1 := andi main_v13 main_v17
  let main_v19 : FVec F S20x20 .f32 := Host.absf main_arg4
  let main_cst_6 : FVec F S_ .f32 := constant S_ .f32 0x7F800000#32
  let main_v20 : FVec F S20x20 .f32 := broadcastInDim S20x20 ![] bcast_S_S20x20 main_cst_6
  let main_v21 : IVec S20x20 1 := cmpf .olt main_v19 main_v20
  let main_c_7 : IVec S_ 1 := constantI S_ 1 1#1
  let main_v22 : IVec S_ 1 := (fun x v => Host.reduce IntOp.andi x v reducesTo_S20x20_S_d0_1 h_S_) main_v21 main_c_7
  let main_v23 : IVec S_ 1 := andi main_v18 main_v22
  let main_v24 : FVec F S20 .f32 := Host.absf main_arg5
  let main_cst_8 : FVec F S_ .f32 := constant S_ .f32 0x7F800000#32
  let main_v25 : FVec F S20 .f32 := broadcastInDim S20 ![] bcast_S_S20 main_cst_8
  let main_v26 : IVec S20 1 := cmpf .olt main_v24 main_v25
  let main_c_9 : IVec S_ 1 := constantI S_ 1 1#1
  let main_v27 : IVec S_ 1 := (fun x v => Host.reduce IntOp.andi x v reducesTo_S20_S_d0 h_S_) main_v26 main_c_9
  let main_v28 : IVec S_ 1 := andi main_v23 main_v27
  let main_v29 : FVec F S2x20 .f32 := Host.absf main_arg6
  let main_cst_10 : FVec F S_ .f32 := constant S_ .f32 0x7F800000#32
  let main_v30 : FVec F S2x20 .f32 := broadcastInDim S2x20 ![] bcast_S_S2x20 main_cst_10
  let main_v31 : IVec S2x20 1 := cmpf .olt main_v29 main_v30
  let main_c_11 : IVec S_ 1 := constantI S_ 1 1#1
  let main_v32 : IVec S_ 1 := (fun x v => Host.reduce IntOp.andi x v reducesTo_S2x20_S_d0_1 h_S_) main_v31 main_c_11
  let main_v33 : IVec S_ 1 := andi main_v28 main_v32
  fn_part2 (F := F) main_arg7 main_v33

def fn {F : FTy → Type} [FloatOps F] (main_arg0 : FVec F S4000000x1 .f32) (main_arg1 : FVec F S4000000x2 .f32) (main_arg2 : FVec F S20x1 .f32) (main_arg3 : FVec F S20 .f32) (main_arg4 : FVec F S20x20 .f32) (main_arg5 : FVec F S20 .f32) (main_arg6 : FVec F S2x20 .f32) (main_arg7 : FVec F S2 .f32) : IVec S_ 1 :=
  let main_v0 : FVec F S4000000x1 .f32 := Host.absf main_arg0
  let main_cst : FVec F S_ .f32 := constant S_ .f32 0x7F800000#32
  let main_v1 : FVec F S4000000x1 .f32 := broadcastInDim S4000000x1 ![] bcast_S_S4000000x1 main_cst
  let main_v2 : IVec S4000000x1 1 := cmpf .olt main_v0 main_v1
  let main_c : IVec S_ 1 := constantI S_ 1 1#1
  let main_v3 : IVec S_ 1 := (fun x v => Host.reduce IntOp.andi x v reducesTo_S4000000x1_S_d0_1 h_S_) main_v2 main_c
  let main_v4 : FVec F S4000000x2 .f32 := Host.absf main_arg1
  let main_cst_0 : FVec F S_ .f32 := constant S_ .f32 0x7F800000#32
  let main_v5 : FVec F S4000000x2 .f32 := broadcastInDim S4000000x2 ![] bcast_S_S4000000x2 main_cst_0
  let main_v6 : IVec S4000000x2 1 := cmpf .olt main_v4 main_v5
  let main_c_1 : IVec S_ 1 := constantI S_ 1 1#1
  let main_v7 : IVec S_ 1 := (fun x v => Host.reduce IntOp.andi x v reducesTo_S4000000x2_S_d0_1 h_S_) main_v6 main_c_1
  let main_v8 : IVec S_ 1 := andi main_v3 main_v7
  let main_v9 : FVec F S20x1 .f32 := Host.absf main_arg2
  let main_cst_2 : FVec F S_ .f32 := constant S_ .f32 0x7F800000#32
  let main_v10 : FVec F S20x1 .f32 := broadcastInDim S20x1 ![] bcast_S_S20x1 main_cst_2
  let main_v11 : IVec S20x1 1 := cmpf .olt main_v9 main_v10
  let main_c_3 : IVec S_ 1 := constantI S_ 1 1#1
  let main_v12 : IVec S_ 1 := (fun x v => Host.reduce IntOp.andi x v reducesTo_S20x1_S_d0_1 h_S_) main_v11 main_c_3
  let main_v13 : IVec S_ 1 := andi main_v8 main_v12
  let main_v14 : FVec F S20 .f32 := Host.absf main_arg3
  let main_cst_4 : FVec F S_ .f32 := constant S_ .f32 0x7F800000#32
  let main_v15 : FVec F S20 .f32 := broadcastInDim S20 ![] bcast_S_S20 main_cst_4
  let main_v16 : IVec S20 1 := cmpf .olt main_v14 main_v15
  fn_part1 (F := F) main_arg4 main_arg5 main_arg6 main_arg7 main_v13 main_v16
-- ==== Kernel.lean ====
abbrev S4000000x1 : Shape := ⟨2, ![4000000, 1]⟩
abbrev S4000000x2 : Shape := ⟨2, ![4000000, 2]⟩
abbrev S20x1 : Shape := ⟨2, ![20, 1]⟩
abbrev S20 : Shape := ⟨1, ![20]⟩
abbrev S20x20 : Shape := ⟨2, ![20, 20]⟩
abbrev S2x20 : Shape := ⟨2, ![2, 20]⟩
abbrev S2 : Shape := ⟨1, ![2]⟩
abbrev S1x20 : Shape := ⟨2, ![1, 20]⟩
abbrev S20x2 : Shape := ⟨2, ![20, 2]⟩
abbrev S1x2 : Shape := ⟨2, ![1, 2]⟩
abbrev S6400x1 : Shape := ⟨2, ![6400, 1]⟩
abbrev S6400x2 : Shape := ⟨2, ![6400, 2]⟩
abbrev S6400x20 : Shape := ⟨2, ![6400, 20]⟩
abbrev S6400 : Shape := ⟨1, ![6400]⟩

abbrev nBuf : Space → Nat
  | .hbm => 15
  | .vmem => 12
  | .smem => 0
  | _ => 0

abbrev bufTy : (tb : Table) → Fin (tcTables nBuf tb) → BufTy
  | .hbm, ⟨0, _⟩ => ⟨S4000000x1, .f32⟩
  | .hbm, ⟨1, _⟩ => ⟨S4000000x2, .f32⟩
  | .hbm, ⟨2, _⟩ => ⟨S20x1, .f32⟩
  | .hbm, ⟨3, _⟩ => ⟨S20, .f32⟩
  | .hbm, ⟨4, _⟩ => ⟨S20x20, .f32⟩
  | .hbm, ⟨5, _⟩ => ⟨S20, .f32⟩
  | .hbm, ⟨6, _⟩ => ⟨S2x20, .f32⟩
  | .hbm, ⟨7, _⟩ => ⟨S2, .f32⟩
  | .hbm, ⟨8, _⟩ => ⟨S1x20, .f32⟩
  | .hbm, ⟨9, _⟩ => ⟨S1x20, .f32⟩
  | .hbm, ⟨10, _⟩ => ⟨S20x20, .f32⟩
  | .hbm, ⟨11, _⟩ => ⟨S1x20, .f32⟩
  | .hbm, ⟨12, _⟩ => ⟨S20x2, .f32⟩
  | .hbm, ⟨13, _⟩ => ⟨S1x2, .f32⟩
  | .hbm, ⟨14, _⟩ => ⟨S4000000x1, .f32⟩
  | .local _ .vmem, ⟨0, _⟩ => ⟨S6400x1, .f32⟩
  | .local _ .vmem, ⟨1, _⟩ => ⟨S6400x1, .f32⟩
  | .local _ .vmem, ⟨2, _⟩ => ⟨S6400x2, .f32⟩
  | .local _ .vmem, ⟨3, _⟩ => ⟨S6400x2, .f32⟩
  | .local _ .vmem, ⟨4, _⟩ => ⟨S1x20, .f32⟩
  | .local _ .vmem, ⟨5, _⟩ => ⟨S1x20, .f32⟩
  | .local _ .vmem, ⟨6, _⟩ => ⟨S20x20, .f32⟩
  | .local _ .vmem, ⟨7, _⟩ => ⟨S1x20, .f32⟩
  | .local _ .vmem, ⟨8, _⟩ => ⟨S20x2, .f32⟩
  | .local _ .vmem, ⟨9, _⟩ => ⟨S1x2, .f32⟩
  | .local _ .vmem, ⟨10, _⟩ => ⟨S6400x1, .f32⟩
  | .local _ .vmem, ⟨11, _⟩ => ⟨S6400x1, .f32⟩
  | _, _ => ⟨S4000000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![625], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x20 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x20 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S20x20 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x20 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S20x2 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S6400x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  transposes_S20x1_S1x20_1_0 : S20x1.Transposes [1, 0] S1x20
  shapeCasts_S20_S1x20 : S20.ShapeCasts S1x20
  transposes_S20x20_S20x20_1_0 : S20x20.Transposes [1, 0] S20x20
  transposes_S2x20_S20x2_1_0 : S2x20.Transposes [1, 0] S20x2
  shapeCasts_S2_S1x2 : S2.ShapeCasts S1x2
  inb_S6400x1_S6400x1_0_0 : ∀ a, (![0, 0] : Fin 2 → Nat) a + S6400x1.size a ≤ S6400x1.size a
  h_S6400x1 : 0 < S6400x1.numel
  inb_S1x20_S1x20_0_0 : ∀ a, (![0, 0] : Fin 2 → Nat) a + S1x20.size a ≤ S1x20.size a
  h_S1x20 : 0 < S1x20.numel
  shapeCasts_S1x20_S1x20 : S1x20.ShapeCasts S1x20
  broadcasts_S6400x1_S6400x20 : S6400x1.Broadcasts S6400x20
  broadcasts_S1x20_S6400x20 : S1x20.Broadcasts S6400x20
  bitsLt_bf16_f32 : FTy.bits .bf16 < FTy.bits .f32
  inb_S20x20_S20x20_0_0 : ∀ a, (![0, 0] : Fin 2 → Nat) a + S20x20.size a ≤ S20x20.size a
  h_S20x20 : 0 < S20x20.numel
  shapeCasts_S20x20_S20x20 : S20x20.ShapeCasts S20x20
  inb_S20x2_S20x2_0_0 : ∀ a, (![0, 0] : Fin 2 → Nat) a + S20x2.size a ≤ S20x2.size a
  h_S20x2 : 0 < S20x2.numel
  shapeCasts_S20x2_S20x2 : S20x2.ShapeCasts S20x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S6400x2 : S1x2.Broadcasts S6400x2
  inb_S6400x2_S6400x2_0_0 : ∀ a, (![0, 0] : Fin 2 → Nat) a + S6400x2.size a ≤ S6400x2.size a
  h_S6400x2 : 0 < S6400x2.numel
  reduces_S6400x2_S6400 : S6400x2.Reduces [1] S6400
  shapeCasts_S6400_S6400x1 : S6400.ShapeCasts S6400x1
  dot_S6400x20_S20x20_S6400x20_1_0_0_1_n_n_wf : DotDims.WF S6400x20 S20x20 S6400x20 [1] [0] [0] [1] [] []
  dot_S6400x20_S20x2_S6400x2_1_0_0_1_n_n_wf : DotDims.WF S6400x20 S20x2 S6400x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x1.size a ≤ S4000000x1.size a
  hwx0_0 : ∀ i : grid0.Coords, EltTy.bits .f32 = 32 ∨ (Rect.block (s := S4000000x1) S6400x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x2.size a ≤ S4000000x2.size a
  hwx0_1 : ∀ i : grid0.Coords, EltTy.bits .f32 = 32 ∨ (Rect.block (s := S4000000x2) S6400x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x20.size a ≤ S1x20.size a
  hwx0_2 : ∀ i : grid0.Coords, EltTy.bits .f32 = 32 ∨ (Rect.block (s := S1x20) S1x20.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x20.size a ≤ S1x20.size a
  hwx0_3 : ∀ i : grid0.Coords, EltTy.bits .f32 = 32 ∨ (Rect.block (s := S1x20) S1x20.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S20x20.size a ≤ S20x20.size a
  hwx0_4 : ∀ i : grid0.Coords, EltTy.bits .f32 = 32 ∨ (Rect.block (s := S20x20) S20x20.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x20.size a ≤ S1x20.size a
  hwx0_5 : ∀ i : grid0.Coords, EltTy.bits .f32 = 32 ∨ (Rect.block (s := S1x20) S1x20.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S20x2.size a ≤ S20x2.size a
  hwx0_6 : ∀ i : grid0.Coords, EltTy.bits .f32 = 32 ∨ (Rect.block (s := S20x2) S20x2.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x2.size a ≤ S1x2.size a
  hwx0_7 : ∀ i : grid0.Coords, EltTy.bits .f32 = 32 ∨ (Rect.block (s := S1x2) S1x2.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S6400x1.size a ≤ S4000000x1.size a
  hwx0_8 : ∀ i : grid0.Coords, EltTy.bits .f32 = 32 ∨ (Rect.block (s := S4000000x1) S6400x1.size (cc0_transform_8 i) (hinb0_8 i)).WholeWords (EltTy.packing .f32)

variable [Facts₀]

def dot_S6400x20_S20x20_S6400x20_1_0_0_1_n_n : DotDims S6400x20 S20x20 S6400x20 where
  lhsContracting := [1]
  rhsContracting := [0]
  lhsNonContracting := [0]
  rhsNonContracting := [1]
  lhsBatch := []
  rhsBatch := []
  wf := dot_S6400x20_S20x20_S6400x20_1_0_0_1_n_n_wf
def dot_S6400x20_S20x2_S6400x2_1_0_0_1_n_n : DotDims S6400x20 S20x2 S6400x2 where
  lhsContracting := [1]
  rhsContracting := [0]
  lhsNonContracting := [0]
  rhsNonContracting := [1]
  lhsBatch := []
  rhsBatch := []
  wf := dot_S6400x20_S20x2_S6400x2_1_0_0_1_n_n_wf

abbrev win0_0 : Pipeline.Window sig grid0 :=
  Pipeline.Window.ofSpec (Memref.whole main_arg0) S6400x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S6400x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x20.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x20.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S20x20.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x20.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S20x2.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S1x2.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6) S6400x1.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S4000000x1 : Shape := ⟨2, ![4000000, 1]⟩
abbrev S4000000x2 : Shape := ⟨2, ![4000000, 2]⟩
abbrev S20x1 : Shape := ⟨2, ![20, 1]⟩
abbrev S20 : Shape := ⟨1, ![20]⟩
abbrev S20x20 : Shape := ⟨2, ![20, 20]⟩
abbrev S2x20 : Shape := ⟨2, ![2, 20]⟩
abbrev S2 : Shape := ⟨1, ![2]⟩
abbrev S1x20 : Shape := ⟨2, ![1, 20]⟩
abbrev S4000000x20 : Shape := ⟨2, ![4000000, 20]⟩
abbrev S_ : Shape := ⟨0, ![]⟩
abbrev S20x2 : Shape := ⟨2, ![20, 2]⟩
abbrev S1x2 : Shape := ⟨2, ![1, 2]⟩
abbrev S4000000 : Shape := ⟨1, ![4000000]⟩

abbrev nBuf : Space → Nat
  | .hbm => 33
  | .vmem => 0
  | .smem => 0
  | _ => 0

abbrev bufTy : (tb : Table) → Fin (tcTables nBuf tb) → BufTy
  | .hbm, ⟨0, _⟩ => ⟨S4000000x1, .f32⟩
  | .hbm, ⟨1, _⟩ => ⟨S4000000x2, .f32⟩
  | .hbm, ⟨2, _⟩ => ⟨S20x1, .f32⟩
  | .hbm, ⟨3, _⟩ => ⟨S20, .f32⟩
  | .hbm, ⟨4, _⟩ => ⟨S20x20, .f32⟩
  | .hbm, ⟨5, _⟩ => ⟨S20, .f32⟩
  | .hbm, ⟨6, _⟩ => ⟨S2x20, .f32⟩
  | .hbm, ⟨7, _⟩ => ⟨S2, .f32⟩
  | .hbm, ⟨8, _⟩ => ⟨S1x20, .f32⟩
  | .hbm, ⟨9, _⟩ => ⟨S4000000x20, .f32⟩
  | .hbm, ⟨10, _⟩ => ⟨S1x20, .f32⟩
  | .hbm, ⟨11, _⟩ => ⟨S4000000x20, .f32⟩
  | .hbm, ⟨12, _⟩ => ⟨S4000000x20, .f32⟩
  | .hbm, ⟨13, _⟩ => ⟨S_, .f32⟩
  | .hbm, ⟨14, _⟩ => ⟨S4000000x20, .f32⟩
  | .hbm, ⟨15, _⟩ => ⟨S4000000x20, .f32⟩
  | .hbm, ⟨16, _⟩ => ⟨S20x20, .f32⟩
  | .hbm, ⟨17, _⟩ => ⟨S4000000x20, .f32⟩
  | .hbm, ⟨18, _⟩ => ⟨S1x20, .f32⟩
  | .hbm, ⟨19, _⟩ => ⟨S4000000x20, .f32⟩
  | .hbm, ⟨20, _⟩ => ⟨S4000000x20, .f32⟩
  | .hbm, ⟨21, _⟩ => ⟨S_, .f32⟩
  | .hbm, ⟨22, _⟩ => ⟨S4000000x20, .f32⟩
  | .hbm, ⟨23, _⟩ => ⟨S4000000x20, .f32⟩
  | .hbm, ⟨24, _⟩ => ⟨S20x2, .f32⟩
  | .hbm, ⟨25, _⟩ => ⟨S4000000x2, .f32⟩
  | .hbm, ⟨26, _⟩ => ⟨S1x2, .f32⟩
  | .hbm, ⟨27, _⟩ => ⟨S4000000x2, .f32⟩
  | .hbm, ⟨28, _⟩ => ⟨S4000000x2, .f32⟩
  | .hbm, ⟨29, _⟩ => ⟨S4000000x2, .f32⟩
  | .hbm, ⟨30, _⟩ => ⟨S_, .f32⟩
  | .hbm, ⟨31, _⟩ => ⟨S4000000, .f32⟩
  | .hbm, ⟨32, _⟩ => ⟨S4000000x1, .f32⟩
  | _, _ => ⟨S4000000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call1_cst : Ref sig .tc := ⟨.hbm, 21, rfl⟩
abbrev main_call1_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst : Ref sig .tc := ⟨.hbm, 30, rfl⟩
abbrev main_v18 : Ref sig .tc := ⟨.hbm, 31, rfl⟩
abbrev main_v19 : Ref sig .tc := ⟨.hbm, 32, rfl⟩

abbrev nD : Nat := 1
abbrev τ : Topo := Topo.v7x

variable {F : FTy → Type} [FloatOps F]

class Facts₀ : Prop where
  transposes_S20x1_S1x20_1_0 : S20x1.Transposes [1, 0] S1x20
  bcast_S20_S1x20_1 : S20.BroadcastsInDim S1x20 (![1] : Fin 1 → Fin S1x20.rank)
  bcast_S1x20_S4000000x20_0_1 : S1x20.BroadcastsInDim S4000000x20 (![0, 1] : Fin 2 → Fin S4000000x20.rank)
  bcast_S_S4000000x20 : S_.BroadcastsInDim S4000000x20 (![] : Fin 0 → Fin S4000000x20.rank)
  transposes_S20x20_S20x20_1_0 : S20x20.Transposes [1, 0] S20x20
  transposes_S2x20_S20x2_1_0 : S2x20.Transposes [1, 0] S20x2
  bcast_S2_S1x2_1 : S2.BroadcastsInDim S1x2 (![1] : Fin 1 → Fin S1x2.rank)
  bcast_S1x2_S4000000x2_0_1 : S1x2.BroadcastsInDim S4000000x2 (![0, 1] : Fin 2 → Fin S4000000x2.rank)
  reducesTo_S4000000x2_S4000000_d1 : S4000000x2.ReducesTo [1] S4000000
  h_S_ : 0 < S_.numel
  bcast_S4000000_S4000000x1_0 : S4000000.BroadcastsInDim S4000000x1 (![0] : Fin 1 → Fin S4000000x1.rank)
  dot_S4000000x1_S1x20_S4000000x20_1_0_0_1_n_n_wf : DotDims.WF S4000000x1 S1x20 S4000000x20 [1] [0] [0] [1] [] []
  dot_S4000000x20_S20x20_S4000000x20_1_0_0_1_n_n_wf : DotDims.WF S4000000x20 S20x20 S4000000x20 [1] [0] [0] [1] [] []
  dot_S4000000x20_S20x2_S4000000x2_1_0_0_1_n_n_wf : DotDims.WF S4000000x20 S20x2 S4000000x2 [1] [0] [0] [1] [] []

variable [Facts₀]

def dot_S4000000x1_S1x20_S4000000x20_1_0_0_1_n_n : DotDims S4000000x1 S1x20 S4000000x20 where
  lhsContracting := [1]
  rhsContracting := [0]
  lhsNonContracting := [0]
  rhsNonContracting := [1]
  lhsBatch := []
  rhsBatch := []
  wf := dot_S4000000x1_S1x20_S4000000x20_1_0_0_1_n_n_wf
def dot_S4000000x20_S20x20_S4000000x20_1_0_0_1_n_n : DotDims S4000000x20 S20x20 S4000000x20 where
  lhsContracting := [1]
  rhsContracting := [0]
  lhsNonContracting := [0]
  rhsNonContracting := [1]
  lhsBatch := []
  rhsBatch := []
  wf := dot_S4000000x20_S20x20_S4000000x20_1_0_0_1_n_n_wf
def dot_S4000000x20_S20x2_S4000000x2_1_0_0_1_n_n : DotDims S4000000x20 S20x2 S4000000x2 where
  lhsContracting := [1]
  rhsContracting := [0]
  lhsNonContracting := [0]
  rhsNonContracting := [1]
  lhsBatch := []
  rhsBatch := []
  wf := dot_S4000000x20_S20x2_S4000000x2_1_0_0_1_n_n_wf

class Facts : Prop extends Facts₀ where

variable [Facts]
-- ==== Proof.RowMlp.lean ====
/-
  One row of a small perceptron whose two outputs weight that row's two gate inputs.

  From a row's scalar input `x`: a first hidden layer of twenty units, `max (x · W1[j] + b1[j]) 0`; a second one,
  `max (Σₖ h1[k] · W2[j, k] + b2[j]) 0`; two output weights `Σₖ h2[k] · Wg[e, k] + bg[e]`; and the row's result, the
  sum over the two gates of the output weight times the row's gate input. Everything is on the extended reals; the
  clamp is against the number the f32 zero word denotes, kept as that word. `rowsOut` is the whole [4000000, 1]
  result: row `n` of it depends on row `n` of the two row inputs and on the weights, on nothing else.
-/
import Idealize.ShloMosaic.Lib.ValueIdx

noncomputable section

open scoped BigOperators

namespace Cert.RowMlp

open Idealize.ShloMosaic Idealize.ShloMosaic.ValueIdx

variable (W1 : (⟨2, ![20, 1]⟩ : Shape).Idx → EReal) (b1 : (⟨1, ![20]⟩ : Shape).Idx → EReal)
  (W2 : (⟨2, ![20, 20]⟩ : Shape).Idx → EReal) (b2 : (⟨1, ![20]⟩ : Shape).Idx → EReal)
  (Wg : (⟨2, ![2, 20]⟩ : Shape).Idx → EReal) (bg : (⟨1, ![2]⟩ : Shape).Idx → EReal)

/-- Unit `j` of the first hidden layer at a row whose input is `x`. -/
def hidden1 (x : EReal) (j : Fin 20) : EReal :=
  max (x * W1 (ix2 j (0 : Fin 1)) + b1 (ix1 j)) (Ideal.ofBits .f32 0x00000000#32)

/-- Unit `j` of the second hidden layer: the first layer's twenty units against row `j` of `W2`. -/
def hidden2 (x : EReal) (j : Fin 20) : EReal :=
  max ((∑ k : Fin 20, hidden1 W1 b1 x k * W2 (ix2 j k)) + b2 (ix1 j)) (Ideal.ofBits .f32 0x00000000#32)

/-- Output weight `e`: the second layer's twenty units against row `e` of `Wg`, plus its bias. -/
def gate (x : EReal) (e : Fin 2) : EReal :=
  (∑ k : Fin 20, hidden2 W1 b1 W2 b2 x k * Wg (ix2 e k)) + bg (ix1 e)

/-- The row's result: its two output weights against its two gate inputs. -/
def rowOut (x : EReal) (g : Fin 2 → EReal) : EReal :=
  ∑ e : Fin 2, gate W1 b1 W2 b2 Wg bg x e * g e

/-- The whole result: entry `(n, 0)` is `rowOut` of row `n` of the two row inputs. -/
def rowsOut (f : (⟨2, ![4000000, 1]⟩ : Shape).Idx → EReal) (g : (⟨2, ![4000000, 2]⟩ : Shape).Idx → EReal) :
    (⟨2, ![4000000, 1]⟩ : Shape).Idx → EReal :=
  fun i => rowOut W1 b1 W2 b2 Wg bg (f (ix2 (⟨(i 0).val, idx2_lt0 i⟩ : Fin 4000000) (0 : Fin 1)))
    (fun e => g (ix2 (⟨(i 0).val, idx2_lt0 i⟩ : Fin 4000000) e))

/-- `rowsOut` at an entry of row `n`. -/
theorem rowsOut_apply (f : (⟨2, ![4000000, 1]⟩ : Shape).Idx → EReal) (g : (⟨2, ![4000000, 2]⟩ : Shape).Idx → EReal)
    (i : (⟨2, ![4000000, 1]⟩ : Shape).Idx) (n : Fin 4000000) (hn : (i 0).val = n.val) :
    rowsOut W1 b1 W2 b2 Wg bg f g i
      = rowOut W1 b1 W2 b2 Wg bg (f (ix2 n (0 : Fin 1))) (fun e => g (ix2 n e)) := by
  obtain rfl : n = ⟨(i 0).val, idx2_lt0 i⟩ := Fin.ext hn.symm
  rfl

end Cert.RowMlp

end
-- ==== Proof.LibKeepdims.lean ====
/-
  Column forms of the layout operations that a row reduction with a kept axis produces, read at an index, and a
  lane sum over the second axis of a matrix as the sum over that row's entries. General lemmas over any extents.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the row `[1, a]` reads, at `(u, i)`, the column at `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- On the extended reals a lane sum over the second axis of an `[a, b]` matrix is, at row `r`, the sum of that row's
    entries. -/
theorem multiReduction_add_rows {a b : ℕ} (src : FVec Ideal ⟨2, ![a, b]⟩ .f32) (acc : BitVec (FTy.bits .f32))
    (h : (⟨2, ![a, b]⟩ : Shape).Reduces [1] ⟨1, ![a]⟩) (hφ : FKind.Formats .f32) (hacc : acc = FKind.add.neutral .f32 hφ)
    (r : Fin a) :
    multiReduction .add [1] ⟨1, ![a]⟩ src acc h hφ hacc (ix1 r) = ∑ d : Fin b, src (ix2 r d) := by
  refine (Ideal.multiReduction_add_single src acc h hφ hacc (ix1 r)).trans ?_
  refine Finset.sum_congr rfl fun d _ => congrArg src (funext fun ax => Fin.ext ?_)
  match ax with
  | ⟨0, _⟩ => rfl
  | ⟨1, _⟩ => rfl

end Cert.LibKeepdims

end
-- ==== Proof.LibPlainMatmul.lean ====
/-
  A plain matrix product `[a, n] × [n, b]` (the left operand contracted on its columns, the right one on its rows,
  no batch axis) into the zero accumulator, read at an entry on the extended reals: entry `(r, j)` is the sum over
  `k` of the left operand at `(r, k)` times the right operand at `(k, j)`. General over the three extents, the two
  operand formats and the precision.
-/
import Idealize.ShloMosaic.Lib.ValueIdx
import Idealize.ShloMosaic.PureOps.Ideal.Laws

noncomputable section

open scoped BigOperators

namespace Cert.LibPlainMatmul

open Idealize.ShloMosaic Idealize.ShloMosaic.ValueIdx

variable {a n b : ℕ}

/-- The left operand's index at output entry `i` and contraction index `q`: row `i 0` … -/
theorem lhs_row (i : (⟨2, ![a, b]⟩ : Shape).Idx) (q : (DotDims.plain a n b).contr.Idx) :
    ((DotDims.plain a n b).lhsIdx i q 0).val = (i 0).val := rfl

/-- … and the contraction coordinate as its column. -/
theorem lhs_col (i : (⟨2, ![a, b]⟩ : Shape).Idx) (q : (DotDims.plain a n b).contr.Idx) :
    ((DotDims.plain a n b).lhsIdx i q 1).val = (q (⟨0, Nat.one_pos⟩ : Fin (DotDims.plain a n b).contr.rank)).val :=
  (DotDims.plain a n b).lhsIdx_val_of_single rfl i q

/-- The right operand's index: the contraction coordinate as its row … -/
theorem rhs_row (i : (⟨2, ![a, b]⟩ : Shape).Idx) (q : (DotDims.plain a n b).contr.Idx) :
    ((DotDims.plain a n b).rhsIdx i q 0).val = (q (⟨0, Nat.one_pos⟩ : Fin (DotDims.plain a n b).contr.rank)).val :=
  (DotDims.plain a n b).rhsIdx_val_of_single rfl i q

/-- … and column `i 1`. -/
theorem rhs_col (i : (⟨2, ![a, b]⟩ : Shape).Idx) (q : (DotDims.plain a n b).contr.Idx) :
    ((DotDims.plain a n b).rhsIdx i q 1).val = (i 1).val := rfl

/-- A plain matrix product into the zero accumulator, at entry `(r, j)`, is `Σₖ A (r, k) · B (k, j)`. -/
theorem matmul_zero_apply {φ₁ φ₂ : FTy} (prec : Option ContractPrecision) (A : FVec Ideal ⟨2, ![a, n]⟩ φ₁)
    (B : FVec Ideal ⟨2, ![n, b]⟩ φ₂) (r : Fin a) (j : Fin b) :
    FloatOps.matmul (DotDims.plain a n b) prec A B (constant ⟨2, ![a, b]⟩ .f32 0x00000000#32) (ix2 r j)
      = ∑ k : Fin n, A (ix2 r k) * B (ix2 k j) := by
  rw [Ideal.matmul_constant_zero_apply, ← Equiv.sum_comp (contrEquiv1 (DotDims.plain a n b) n rfl rfl).symm]
  refine Finset.sum_congr rfl fun k _ => ?_
  have hk := contrEquiv1_symm_val (DotDims.plain a n b) n rfl rfl k
  have el : (DotDims.plain a n b).lhsIdx (ix2 r j) ((contrEquiv1 (DotDims.plain a n b) n rfl rfl).symm k) = ix2 r k :=
    funext fun c => Fin.ext (by
      match c with
      | ⟨0, _⟩ => exact lhs_row _ _
      | ⟨1, _⟩ => exact (lhs_col _ _).trans hk)
  have er : (DotDims.plain a n b).rhsIdx (ix2 r j) ((contrEquiv1 (DotDims.plain a n b) n rfl rfl).symm k) = ix2 k j :=
    funext fun c => Fin.ext (by
      match c with
      | ⟨0, _⟩ => exact (rhs_row _ _).trans hk
      | ⟨1, _⟩ => exact rhs_col _ _)
  rw [el, er]

end Cert.LibPlainMatmul

end
-- ==== Proof.KernelRow.lean ====
/-
  One grid point's body computes `rowOut` row by row. The body's value is one pure term of its eight loaded blocks:
  the row input `[6400, 1]`, the gate inputs `[6400, 2]` and the six weight blocks, which the host has laid out
  transposed (`[1, 20]`, `[20, 20]`, `[20, 2]`) or as one-row matrices (`[1, 20]`, `[1, 2]`). Read at row `r`:
  the column broadcast of the row input reads it at `(r, 0)`, each one-row broadcast reads its row at the column, each
  matrix product into the zero accumulator is the sum over its twenty contracted coordinates, a change of float
  format is the identity, and the lane sum over the two gates followed by the cast to a column is the sum of the
  row's two products.
-/
import proofs.«167164_j41558103556103_2_alg».proof.Proof.Gen.KernelIdeal.Skeleton
import proofs.«167164_j41558103556103_2_alg».proof.Proof.RowMlp
import proofs.«167164_j41558103556103_2_alg».proof.Proof.LibKeepdims
import proofs.«167164_j41558103556103_2_alg».proof.Proof.LibPlainMatmul
import Idealize.ShloMosaic.Lib.Pipeline.Value
import Idealize.ShloMosaic.Lib.ValueLayout

noncomputable section

open scoped BigOperators

namespace Cert.KernelIdeal.RowValue

open Cert.KernelIdeal Cert.KernelIdeal.Gen Idealize.ShloMosaic Idealize.ShloMosaic.ValueIdx Cert.RowMlp

variable (v0 : Vec Ideal S6400x1 .f32) (v1 v3 : Vec Ideal S1x20 .f32) (v13 : Vec Ideal S20x20 .f32)
  (v16 : Vec Ideal S1x20 .f32) (v24 : Vec Ideal S20x2 .f32) (v27 : Vec Ideal S1x2 .f32) (v32 : Vec Ideal S6400x2 .f32)
  (W1 : (⟨2, ![20, 1]⟩ : Shape).Idx → EReal) (b1 : (⟨1, ![20]⟩ : Shape).Idx → EReal)
  (W2 : (⟨2, ![20, 20]⟩ : Shape).Idx → EReal) (b2 : (⟨1, ![20]⟩ : Shape).Idx → EReal)
  (Wg : (⟨2, ![2, 20]⟩ : Shape).Idx → EReal) (bg : (⟨1, ![2]⟩ : Shape).Idx → EReal)

/-- A one-row block, cast to its own shape and broadcast over the rows, reads at `(r, j)` what the weights say its
    row holds at `j`. -/
theorem row_bcast {a b : ℕ} (v : (⟨2, ![1, b]⟩ : Shape).Idx → EReal) (w : Fin b → EReal)
    (hc : (⟨2, ![1, b]⟩ : Shape).ShapeCasts ⟨2, ![1, b]⟩) (hb : (⟨2, ![1, b]⟩ : Shape).Broadcasts ⟨2, ![a, b]⟩)
    (hv : ∀ j : Fin b, v (ix2 (0 : Fin 1) j) = w j) (r : Fin a) (j : Fin b) :
    broadcastTo ⟨2, ![a, b]⟩ (shapeCast ⟨2, ![1, b]⟩ v hc) hb (ix2 r j) = w j :=
  (broadcastTo_1b_ab_apply _ hb r j).trans ((congrFun (shapeCast_self v hc) _).trans (hv j))

/-- THE BODY'S VALUE AT ROW `r`: `rowOut` of the row's input and its two gate inputs, for weight blocks that hold the
    weights transposed (`h1`, `h13`, `h24`) or as one row (`h3`, `h16`, `h27`). -/
theorem pay_apply (h1 : ∀ j : Fin 20, v1 (ix2 (0 : Fin 1) j) = W1 (ix2 j (0 : Fin 1)))
    (h3 : ∀ j : Fin 20, v3 (ix2 (0 : Fin 1) j) = b1 (ix1 j))
    (h13 : ∀ k j : Fin 20, v13 (ix2 k j) = W2 (ix2 j k))
    (h16 : ∀ j : Fin 20, v16 (ix2 (0 : Fin 1) j) = b2 (ix1 j))
    (h24 : ∀ (k : Fin 20) (e : Fin 2), v24 (ix2 k e) = Wg (ix2 e k))
    (h27 : ∀ e : Fin 2, v27 (ix2 (0 : Fin 1) e) = bg (ix1 e))
    (r : Fin 6400) (u : Fin 1) :
    k0_pay1 v0 v1 v3 v13 v16 v24 v27 v32 (ix2 r u)
      = rowOut W1 b1 W2 b2 Wg bg (v0 (ix2 r (0 : Fin 1))) (fun e => v32 (ix2 r e)) := by
  unfold k0_pay1
  dsimp only
  refine (Cert.LibKeepdims.shapeCast_a_a1_apply _ _ r u).trans ?_
  refine (Cert.LibKeepdims.multiReduction_add_rows _ _ _ _ _ r).trans ?_
  unfold rowOut
  refine Finset.sum_congr rfl fun e _ => ?_
  refine (mulf_apply _ _ _).trans (congrArg (· * v32 (ix2 r e)) ?_)
  -- output weight `e`
  refine (addf_apply _ _ _).trans ?_
  unfold gate
  refine congrArg₂ (· + ·) ?_ (row_bcast v27 (fun e => bg (ix1 e)) _ _ h27 r e)
  refine (Cert.LibPlainMatmul.matmul_zero_apply none _ _ r e).trans ?_
  refine Finset.sum_congr rfl fun k _ => congrArg₂ (· * ·) ?_ ((truncf_apply (ψ := .bf16) (φ := .f32) _ bitsLt_bf16_f32 _).trans ((congrFun (shapeCast_self v24 _) _).trans (h24 k e)))
  -- second hidden layer, unit `k`
  refine (truncf_apply (ψ := .bf16) (φ := .f32) _ bitsLt_bf16_f32 _).trans ((maximumf_apply _ _ _).trans ?_)
  unfold hidden2
  refine congrArg₂ max ?_ rfl
  refine (addf_apply _ _ _).trans ?_
  refine congrArg₂ (· + ·) ?_ (row_bcast v16 (fun j => b2 (ix1 j)) _ _ h16 r k)
  refine (Cert.LibPlainMatmul.matmul_zero_apply none _ _ r k).trans ?_
  refine Finset.sum_congr rfl fun k' _ => congrArg₂ (· * ·) ?_ ((truncf_apply (ψ := .bf16) (φ := .f32) _ bitsLt_bf16_f32 _).trans ((congrFun (shapeCast_self v13 _) _).trans (h13 k' k)))
  -- first hidden layer, unit `k'`
  refine (truncf_apply (ψ := .bf16) (φ := .f32) _ bitsLt_bf16_f32 _).trans ((maximumf_apply _ _ _).trans ?_)
  unfold hidden1
  refine congrArg₂ max ?_ rfl
  refine (addf_apply _ _ _).trans ?_
  refine congrArg₂ (· + ·) ?_ (row_bcast v3 (fun j => b1 (ix1 j)) _ _ h3 r k')
  refine (mulf_apply _ _ _).trans ?_
  exact congrArg₂ (· * ·) (Cert.LibKeepdims.broadcastTo_a1_ab_apply v0 _ r k')
    (row_bcast v1 (fun j => W1 (ix2 j (0 : Fin 1))) _ _ h1 r k')

end Cert.KernelIdeal.RowValue

end
-- ==== Proof.Blocks.lean ====
/-
  From one grid point's block to the whole result array.

  The grid has 625 points; point `t` reads rows `6400·t … 6400·t + 6399` of the two row inputs and writes the same rows
  of the result, and at every point it reads the six weight blocks whole. The weight blocks are what the host wrote
  before the call: `W1`, `W2`, `Wg` transposed and `b1`, `b2`, `bg` recast as one-row matrices, so the block entry
  `(k, j)` of a transposed weight is the weight's entry `(j, k)` and entry `(0, j)` of a recast bias is its entry `j`.
  With the body's value at a row (`pay_apply`) this makes what point `t` writes back block `t` of `rowsOut` of the
  argument arrays; the 625 blocks cover the 4000000 rows (row `n` lies in block `n / 6400`), so the array ends
  holding `rowsOut`.
-/
import proofs.«167164_j41558103556103_2_alg».proof.Proof.Gen.KernelIdeal.Value
import proofs.«167164_j41558103556103_2_alg».proof.Proof.KernelRow
import Idealize.ShloMosaic.Lib.StableHlo.Run
import Idealize.ShloMosaic.Lib.ValueLayout

noncomputable section

open scoped BigOperators

namespace Cert.KernelIdeal.RowValue

open Cert.KernelIdeal Cert.KernelIdeal.Gen Idealize.ShloMosaic Idealize.ShloMosaic.TcCoe Idealize.SL.Sem
open Idealize.ShloMosaic.StableHlo Idealize.ShloMosaic.ValueIdx Cert.RowMlp
open Idealize.ShloMosaic.Pipeline (Dat)

variable (m : (ℓ : Loc nD τ sig) → Buf (Elt Ideal) ℓ) (ρ : Dev nD → PrngReg)

/-- What the result array ends holding: `rowsOut` of the argument arrays. -/
abbrev result (c : Dev nD) : S4000000x1.Idx → EReal :=
  rowsOut (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg0)) (m ((c : Thread nD τ).loc main_arg1))

theorem hz : (![0, 0] : Fin 2 → Nat) = fun _ => 0 := funext fun a => by fin_cases a <;> rfl

/-! ## The weight arrays as the call finds them -/

/-- `W1` transposed: entry `(0, j)` is `W1 (j, 0)`. -/
theorem V_v0_apply (c : Dev nD) (j : Fin 20) :
    (V m c main_v0 : S1x20.Idx → EReal) (ix2 (0 : Fin 1) j) = (m ((c : Thread nD τ).loc main_arg2)) (ix2 j (0 : Fin 1)) := by
  have e : (V m c main_v0 : S1x20.Idx → EReal)
      = transpose S1x20 [1, 0] (m ((c : Thread nD τ).loc main_arg2)) transposes_S20x1_S1x20_1_0 := by
    dsimp only [Gen.V, Gen.hostOps0]; after_results <;> rfl
  exact (congrFun e _).trans (transpose_ix2_apply _ _ (0 : Fin 1) j)

/-- `b1` as a one-row matrix: entry `(0, j)` is `b1 j`. -/
theorem V_v1_apply (c : Dev nD) (j : Fin 20) :
    (V m c main_v1 : S1x20.Idx → EReal) (ix2 (0 : Fin 1) j) = (m ((c : Thread nD τ).loc main_arg3)) (ix1 j) := by
  have e : (V m c main_v1 : S1x20.Idx → EReal) = shapeCast S1x20 (m ((c : Thread nD τ).loc main_arg3)) shapeCasts_S20_S1x20 := by
    dsimp only [Gen.V, Gen.hostOps0]; after_results <;> rfl
  exact (congrFun e _).trans (shapeCast_a_1a_apply _ _ (0 : Fin 1) j)

/-- `W2` transposed: entry `(k, j)` is `W2 (j, k)`. -/
theorem V_v2_apply (c : Dev nD) (k j : Fin 20) :
    (V m c main_v2 : S20x20.Idx → EReal) (ix2 k j) = (m ((c : Thread nD τ).loc main_arg4)) (ix2 j k) := by
  have e : (V m c main_v2 : S20x20.Idx → EReal)
      = transpose S20x20 [1, 0] (m ((c : Thread nD τ).loc main_arg4)) transposes_S20x20_S20x20_1_0 := by
    dsimp only [Gen.V, Gen.hostOps0]; after_results <;> rfl
  exact (congrFun e _).trans (transpose_ix2_apply _ _ k j)

/-- `b2` as a one-row matrix. -/
theorem V_v3_apply (c : Dev nD) (j : Fin 20) :
    (V m c main_v3 : S1x20.Idx → EReal) (ix2 (0 : Fin 1) j) = (m ((c : Thread nD τ).loc main_arg5)) (ix1 j) := by
  have e : (V m c main_v3 : S1x20.Idx → EReal) = shapeCast S1x20 (m ((c : Thread nD τ).loc main_arg5)) shapeCasts_S20_S1x20 := by
    dsimp only [Gen.V, Gen.hostOps0]; after_results <;> rfl
  exact (congrFun e _).trans (shapeCast_a_1a_apply _ _ (0 : Fin 1) j)

/-- `Wg` transposed: entry `(k, e)` is `Wg (e, k)`. -/
theorem V_v4_apply (c : Dev nD) (k : Fin 20) (e : Fin 2) :
    (V m c main_v4 : S20x2.Idx → EReal) (ix2 k e) = (m ((c : Thread nD τ).loc main_arg6)) (ix2 e k) := by
  have h : (V m c main_v4 : S20x2.Idx → EReal)
      = transpose S20x2 [1, 0] (m ((c : Thread nD τ).loc main_arg6)) transposes_S2x20_S20x2_1_0 := by
    dsimp only [Gen.V, Gen.hostOps0]; after_results <;> rfl
  exact (congrFun h _).trans (transpose_ix2_apply _ _ k e)

/-- `bg` as a one-row matrix. -/
theorem V_v5_apply (c : Dev nD) (e : Fin 2) :
    (V m c main_v5 : S1x2.Idx → EReal) (ix2 (0 : Fin 1) e) = (m ((c : Thread nD τ).loc main_arg7)) (ix1 e) := by
  have h : (V m c main_v5 : S1x2.Idx → EReal) = shapeCast S1x2 (m ((c : Thread nD τ).loc main_arg7)) shapeCasts_S2_S1x2 := by
    dsimp only [Gen.V, Gen.hostOps0]; after_results <;> rfl
  exact (congrFun h _).trans (shapeCast_a_1a_apply _ _ (0 : Fin 1) e)

/-! ## The blocks -/

/-- The printed index maps, decided over the 625 points: the two row inputs and the result move with the point along
    the rows, every weight block stays at the origin. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

/-- The row input's block at point `t`, row `r`: row `6400·t + r` of the argument. -/
theorem iblk0_apply (c : Dev nD) (t : Fin cfg0.N) (r : Fin 6400) (n : Fin 4000000) (hn : n.val = t.val * 6400 + r.val) :
    iblk m c 0 t (ix2 r (0 : Fin 1)) = (m ((c : Thread nD τ).loc main_arg0)) (ix2 n (0 : Fin 1)) := by
  obtain ⟨e0, e1, -⟩ := idx_facts t
  show V m c main_arg0 (((cfg0.win 0).blk t).view.emb (ix2 r (0 : Fin 1))) = _
  have hi : ((cfg0.win 0).blk t).view.emb (ix2 r (0 : Fin 1)) = ix2 n (0 : Fin 1) := by
    funext a; apply Fin.ext
    match a with
    | ⟨0, _⟩ => show win0_0.index t (0 : Fin 2) * 6400 + 1 * r.val = n.val; omega
    | ⟨1, _⟩ => show win0_0.index t (1 : Fin 2) * 1 + 1 * 0 = 0; omega
  rw [hi, V_main_arg0 m c]

/-- The gate inputs' block at point `t`, row `r`, gate `e`. -/
theorem iblk1_apply (c : Dev nD) (t : Fin cfg0.N) (r : Fin 6400) (e : Fin 2) (n : Fin 4000000)
    (hn : n.val = t.val * 6400 + r.val) :
    iblk m c 1 t (ix2 r e) = (m ((c : Thread nD τ).loc main_arg1)) (ix2 n e) := by
  obtain ⟨-, -, e0, e1, -⟩ := idx_facts t
  show V m c main_arg1 (((cfg0.win 1).blk t).view.emb (ix2 r e)) = _
  have hi : ((cfg0.win 1).blk t).view.emb (ix2 r e) = ix2 n e := by
    funext a; apply Fin.ext
    match a with
    | ⟨0, _⟩ => show win0_1.index t (0 : Fin 2) * 6400 + 1 * r.val = n.val; omega
    | ⟨1, _⟩ => show win0_1.index t (1 : Fin 2) * 2 + 1 * e.val = e.val; omega
  rw [hi, V_main_arg1 m c]

/-- `W1`'s block. -/
theorem iblk2_apply (c : Dev nD) (t : Fin cfg0.N) (j : Fin 20) :
    iblk m c 2 t (ix2 (0 : Fin 1) j) = (m ((c : Thread nD τ).loc main_arg2)) (ix2 j (0 : Fin 1)) := by
  obtain ⟨-, -, -, -, e0, e1, -⟩ := idx_facts t
  show V m c main_v0 (((cfg0.win 2).blk t).view.emb (ix2 (0 : Fin 1) j)) = _
  have hi : ((cfg0.win 2).blk t).view.emb (ix2 (0 : Fin 1) j) = ix2 (0 : Fin 1) j := by
    funext a; apply Fin.ext
    match a with
    | ⟨0, _⟩ => show win0_2.index t (0 : Fin 2) * 1 + 1 * 0 = 0; omega
    | ⟨1, _⟩ => show win0_2.index t (1 : Fin 2) * 20 + 1 * j.val = j.val; omega
  rw [hi]; exact V_v0_apply m c j

/-- `b1`'s block. -/
theorem iblk3_apply (c : Dev nD) (t : Fin cfg0.N) (j : Fin 20) :
    iblk m c 3 t (ix2 (0 : Fin 1) j) = (m ((c : Thread nD τ).loc main_arg3)) (ix1 j) := by
  obtain ⟨-, -, -, -, -, -, e0, e1, -⟩ := idx_facts t
  show V m c main_v1 (((cfg0.win 3).blk t).view.emb (ix2 (0 : Fin 1) j)) = _
  have hi : ((cfg0.win 3).blk t).view.emb (ix2 (0 : Fin 1) j) = ix2 (0 : Fin 1) j := by
    funext a; apply Fin.ext
    match a with
    | ⟨0, _⟩ => show win0_3.index t (0 : Fin 2) * 1 + 1 * 0 = 0; omega
    | ⟨1, _⟩ => show win0_3.index t (1 : Fin 2) * 20 + 1 * j.val = j.val; omega
  rw [hi]; exact V_v1_apply m c j

/-- `W2`'s block. -/
theorem iblk4_apply (c : Dev nD) (t : Fin cfg0.N) (k j : Fin 20) :
    iblk m c 4 t (ix2 k j) = (m ((c : Thread nD τ).loc main_arg4)) (ix2 j k) := by
  obtain ⟨-, -, -, -, -, -, -, -, e0, e1, -⟩ := idx_facts t
  show V m c main_v2 (((cfg0.win 4).blk t).view.emb (ix2 k j)) = _
  have hi : ((cfg0.win 4).blk t).view.emb (ix2 k j) = ix2 k j := by
    funext a; apply Fin.ext
    match a with
    | ⟨0, _⟩ => show win0_4.index t (0 : Fin 2) * 20 + 1 * k.val = k.val; omega
    | ⟨1, _⟩ => show win0_4.index t (1 : Fin 2) * 20 + 1 * j.val = j.val; omega
  rw [hi]; exact V_v2_apply m c k j

/-- `b2`'s block. -/
theorem iblk5_apply (c : Dev nD) (t : Fin cfg0.N) (j : Fin 20) :
    iblk m c 5 t (ix2 (0 : Fin 1) j) = (m ((c : Thread nD τ).loc main_arg5)) (ix1 j) := by
  obtain ⟨-, -, -, -, -, -, -, -, -, -, e0, e1, -⟩ := idx_facts t
  show V m c main_v3 (((cfg0.win 5).blk t).view.emb (ix2 (0 : Fin 1) j)) = _
  have hi : ((cfg0.win 5).blk t).view.emb (ix2 (0 : Fin 1) j) = ix2 (0 : Fin 1) j := by
    funext a; apply Fin.ext
    match a with
    | ⟨0, _⟩ => show win0_5.index t (0 : Fin 2) * 1 + 1 * 0 = 0; omega
    | ⟨1, _⟩ => show win0_5.index t (1 : Fin 2) * 20 + 1 * j.val = j.val; omega
  rw [hi]; exact V_v3_apply m c j

/-- `Wg`'s block. -/
theorem iblk6_apply (c : Dev nD) (t : Fin cfg0.N) (k : Fin 20) (e : Fin 2) :
    iblk m c 6 t (ix2 k e) = (m ((c : Thread nD τ).loc main_arg6)) (ix2 e k) := by
  obtain ⟨-, -, -, -, -, -, -, -, -, -, -, -, e0, e1, -⟩ := idx_facts t
  show V m c main_v4 (((cfg0.win 6).blk t).view.emb (ix2 k e)) = _
  have hi : ((cfg0.win 6).blk t).view.emb (ix2 k e) = ix2 k e := by
    funext a; apply Fin.ext
    match a with
    | ⟨0, _⟩ => show win0_6.index t (0 : Fin 2) * 20 + 1 * k.val = k.val; omega
    | ⟨1, _⟩ => show win0_6.index t (1 : Fin 2) * 2 + 1 * e.val = e.val; omega
  rw [hi]; exact V_v4_apply m c k e

/-- `bg`'s block. -/
theorem iblk7_apply (c : Dev nD) (t : Fin cfg0.N) (e : Fin 2) :
    iblk m c 7 t (ix2 (0 : Fin 1) e) = (m ((c : Thread nD τ).loc main_arg7)) (ix1 e) := by
  obtain ⟨-, -, -, -, -, -, -, -, -, -, -, -, -, -, e0, e1, -⟩ := idx_facts t
  show V m c main_v5 (((cfg0.win 7).blk t).view.emb (ix2 (0 : Fin 1) e)) = _
  have hi : ((cfg0.win 7).blk t).view.emb (ix2 (0 : Fin 1) e) = ix2 (0 : Fin 1) e := by
    funext a; apply Fin.ext
    match a with
    | ⟨0, _⟩ => show win0_7.index t (0 : Fin 2) * 1 + 1 * 0 = 0; omega
    | ⟨1, _⟩ => show win0_7.index t (1 : Fin 2) * 2 + 1 * e.val = e.val; omega
  rw [hi]; exact V_v5_apply m c e

/-! ## What a point writes back, and the array after the run -/

/-- WHAT POINT `t` WRITES BACK is block `t` of `rowsOut` of the argument arrays. -/
theorem flushed_eq (c : Dev nD) (t : Fin cfg0.N) :
    (dats m 0 c).flushed 8 t = ((cfg0.win 8).blk t).view.read (Elt Ideal) (result m c) := by
  rw [Cert.KernelIdeal.Value.flushed8 m c t]
  unfold out0_8
  rw [View.canon_unit_zero hz]
  simp only [View.ld_unit_zero (S := S6400x1) hz, View.ld_unit_zero (S := S6400x2) hz, View.ld_unit_zero (S := S1x20) hz,
    View.ld_unit_zero (S := S20x20) hz, View.ld_unit_zero (S := S20x2) hz, View.ld_unit_zero (S := S1x2) hz]
  refine funext fun (y : S6400x1.Idx) => ?_
  obtain ⟨r, u, rfl⟩ : ∃ (r : Fin 6400) (u : Fin 1), y = ix2 r u := ⟨y 0, y 1, eq_ix2 y⟩
  show k0_pay1 (iblk m c 0 t) (iblk m c 2 t) (iblk m c 3 t) (iblk m c 4 t) (iblk m c 5 t) (iblk m c 6 t) (iblk m c 7 t)
      (iblk m c 1 t) (ix2 r u) = result m c (((cfg0.win 8).blk t).view.emb (ix2 r u))
  obtain ⟨-, -, -, -, -, -, -, -, -, -, -, -, -, -, -, -, e0, e1⟩ := idx_facts t
  have hN : cfg0.N = 625 := N_0
  have hlt : t.val * 6400 + r.val < 4000000 := by have := t.isLt; have := r.isLt; omega
  have hn : ((((cfg0.win 8).blk t).view.emb (ix2 r u)) 0).val = t.val * 6400 + r.val := by
    show win0_8.index t (0 : Fin 2) * 6400 + 1 * r.val = _
    omega
  refine ((pay_apply (iblk m c 0 t) (iblk m c 2 t) (iblk m c 3 t) (iblk m c 4 t) (iblk m c 5 t) (iblk m c 6 t)
    (iblk m c 7 t) (iblk m c 1 t) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
    (iblk2_apply m c t) (iblk3_apply m c t) (iblk4_apply m c t) (iblk5_apply m c t) (iblk6_apply m c t) (iblk7_apply m c t)
    r u).trans ?_).trans
    (rowsOut_apply (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg0)) (m ((c : Thread nD τ).loc main_arg1))
      (((cfg0.win 8).blk t).view.emb (ix2 r u)) ⟨t.val * 6400 + r.val, hlt⟩ hn).symm
  exact congrArg₂ (rowOut (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)))
    (iblk0_apply m c t r ⟨t.val * 6400 + r.val, hlt⟩ rfl)
    (funext fun e => iblk1_apply m c t r e ⟨t.val * 6400 + r.val, hlt⟩ rfl)

/-- An index of the result array is in point `t`'s block iff each coordinate is in the block's range on its axis. -/
theorem mem_blk (t : Fin cfg0.N) (i : S4000000x1.Idx) :
    i ∈ ((cfg0.win 8).blk t).view.set ↔ ∀ a : Fin 2, win0_8.index t a * S6400x1.size a ≤ (i a).val
      ∧ (i a).val < win0_8.index t a * S6400x1.size a + S6400x1.size a := by
  show i ∈ ((View.whole main_v6).slice (win0_8.rect t)).set ↔ _
  rw [View.set_slice_whole, Rect.mem_set_unit]
  exact Iff.rfl

/-- Every row lies in some point's block: row `n` in block `n / 6400`. -/
theorem cover (i : S4000000x1.Idx) :
    ∃ t : Fin cfg0.N, (cfg0.win 8).flush t = true ∧ i ∈ ((cfg0.win 8).blk t).view.set := by
  have hi0 : (i 0).val < 4000000 := (i 0).isLt
  have hi1 : (i 1).val < 1 := (i 1).isLt
  have hN : cfg0.N = 625 := N_0
  have hq : (i 0).val / 6400 < cfg0.N := by rw [hN]; omega
  obtain ⟨-, -, -, -, -, -, -, -, -, -, -, -, -, -, -, -, e0, e1⟩ := idx_facts ⟨(i 0).val / 6400, hq⟩
  refine ⟨⟨(i 0).val / 6400, hq⟩, flush0_8 _, ?_⟩
  rw [mem_blk]
  intro a
  match a with
  | ⟨0, _⟩ =>
    show win0_8.index ⟨(i 0).val / 6400, hq⟩ (0 : Fin 2) * 6400 ≤ (i 0).val
      ∧ (i 0).val < win0_8.index ⟨(i 0).val / 6400, hq⟩ (0 : Fin 2) * 6400 + 6400
    rw [e0]; show (i 0).val / 6400 * 6400 ≤ (i 0).val ∧ (i 0).val < (i 0).val / 6400 * 6400 + 6400; omega
  | ⟨1, _⟩ =>
    show win0_8.index ⟨(i 0).val / 6400, hq⟩ (1 : Fin 2) * 1 ≤ (i 1).val
      ∧ (i 1).val < win0_8.index ⟨(i 0).val / 6400, hq⟩ (1 : Fin 2) * 1 + 1
    omega

/-- THE RESULT ARRAY after the run is `rowsOut` of the argument arrays. -/
theorem final (c : Dev nD) : (dats m 0 c).arrAt 8 cfg0.N = result m c :=
  (dats m 0 c).arrAt_eq_of_cover 8 (result m c) (fun t _ => flushed_eq m c t) cover

/-- The kernel's run: the result array ends at `rowsOut` of the arguments, the arguments unchanged. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩)
    (Cert.KernelIdeal.Value.run_blocks m ρ)

end Cert.KernelIdeal.RowValue

end
-- ==== Proof.RefRow.lean ====
/-
  The reference computes `rowsOut`. Its host program is a chain of whole-array operations; read at one entry, each
  contraction is a sum over its one contracted axis, each broadcast reads its operand at the kept coordinates, each
  transpose swaps the two coordinates, and the final reduction over the two gates starts from the zero word, which
  denotes `0`. The first layer's contraction runs over an axis of extent one: its sum is its one term.
-/
import proofs.«167164_j41558103556103_2_alg».proof.Proof.Gen.ReferenceIdeal.Read
import proofs.«167164_j41558103556103_2_alg».proof.Proof.RowMlp

noncomputable section

open scoped BigOperators

namespace Cert.ReferenceIdeal.RowValue

open Cert.ReferenceIdeal Cert.ReferenceIdeal.Read Idealize.ShloMosaic Idealize.ShloMosaic.ValueIdx Cert.RowMlp

variable (x0 : (⟨S4000000x1, .f32⟩ : BufTy).Contents (Elt Ideal)) (x1 : (⟨S4000000x2, .f32⟩ : BufTy).Contents (Elt Ideal))
  (x2 : (⟨S20x1, .f32⟩ : BufTy).Contents (Elt Ideal)) (x3 : (⟨S20, .f32⟩ : BufTy).Contents (Elt Ideal))
  (x4 : (⟨S20x20, .f32⟩ : BufTy).Contents (Elt Ideal)) (x5 : (⟨S20, .f32⟩ : BufTy).Contents (Elt Ideal))
  (x6 : (⟨S2x20, .f32⟩ : BufTy).Contents (Elt Ideal)) (x7 : (⟨S2, .f32⟩ : BufTy).Contents (Elt Ideal))

/-- The first hidden layer, at an entry whose row is `n` and whose column is `j`. -/
theorem hidden1_apply (I : S4000000x20.Idx) (n : Fin 4000000) (j : Fin 20) (h0 : (I 0).val = n.val) (h1 : (I 1).val = j.val) :
    val_main_v5 (F := Ideal) x0 x2 x3 I = hidden1 x2 x3 (x0 (ix2 n (0 : Fin 1))) j := by
  rw [val_main_v5_apply, val_main_v4_apply, val_main_v1_apply, val_main_v3_apply, val_main_v2_apply,
    val_main_call0_v0_apply, val_main_call0_cst_apply, Fin.sum_univ_one, val_main_v0_apply]
  unfold hidden1
  refine congrArg₂ max (congrArg₂ (· + ·) (congrArg₂ (· * ·) (congrArg x0 ?_) (congrArg x2 ?_)) (congrArg x3 ?_)) rfl
  · exact funext fun a => Fin.ext (by match a with | ⟨0, _⟩ => exact h0 | ⟨1, _⟩ => rfl)
  · exact funext fun a => Fin.ext (by match a with | ⟨0, _⟩ => exact h1 | ⟨1, _⟩ => rfl)
  · exact funext fun a => Fin.ext (by match a with | ⟨0, _⟩ => exact h1)

/-- The second hidden layer, at an entry whose row is `n` and whose column is `j`. -/
theorem hidden2_apply (I : S4000000x20.Idx) (n : Fin 4000000) (j : Fin 20) (h0 : (I 0).val = n.val) (h1 : (I 1).val = j.val) :
    val_main_v11 (F := Ideal) x0 x2 x3 x4 x5 I = hidden2 x2 x3 x4 x5 (x0 (ix2 n (0 : Fin 1))) j := by
  rw [val_main_v11_apply, val_main_v10_apply, val_main_v7_apply, val_main_v9_apply, val_main_v8_apply,
    val_main_call1_v0_apply, val_main_call1_cst_apply]
  unfold hidden2
  refine congrArg₂ max (congrArg₂ (· + ·) (Finset.sum_congr rfl fun k _ => congrArg₂ (· * ·) ?_ ?_) (congrArg x5 ?_)) rfl
  · exact hidden1_apply x0 x2 x3 _ n k h0 rfl
  · rw [val_main_v6_apply]
    exact congrArg x4 (funext fun a => Fin.ext (by match a with | ⟨0, _⟩ => exact h1 | ⟨1, _⟩ => rfl))
  · exact funext fun a => Fin.ext (by match a with | ⟨0, _⟩ => exact h1)

/-- Output weight `e` of row `n`. -/
theorem gate_apply (I : S4000000x2.Idx) (n : Fin 4000000) (e : Fin 2) (h0 : (I 0).val = n.val) (h1 : (I 1).val = e.val) :
    val_main_v16 (F := Ideal) x0 x2 x3 x4 x5 x6 x7 I = gate x2 x3 x4 x5 x6 x7 (x0 (ix2 n (0 : Fin 1))) e := by
  rw [val_main_v16_apply, val_main_v13_apply, val_main_v15_apply, val_main_v14_apply]
  unfold gate
  refine congrArg₂ (· + ·) (Finset.sum_congr rfl fun k _ => congrArg₂ (· * ·) ?_ ?_) (congrArg x7 ?_)
  · exact hidden2_apply x0 x2 x3 x4 x5 _ n k h0 rfl
  · rw [val_main_v12_apply]
    exact congrArg x6 (funext fun a => Fin.ext (by match a with | ⟨0, _⟩ => exact h1 | ⟨1, _⟩ => rfl))
  · exact funext fun a => Fin.ext (by match a with | ⟨0, _⟩ => exact h1)

/-- THE REFERENCE'S RESULT, entry by entry, is `rowsOut` of its arguments. -/
theorem result_eq :
    val_main_v19 (F := Ideal) x0 x1 x2 x3 x4 x5 x6 x7 = rowsOut x2 x3 x4 x5 x6 x7 x0 x1 := by
  funext i
  rw [val_main_v19_apply, val_main_v18_apply, val_main_cst_apply]
  unfold rowsOut rowOut
  refine (congrArg (· + _) Ideal.ofBits_zero_f32).trans ((zero_add _).trans ?_)
  refine Finset.sum_congr rfl fun e _ => ?_
  rw [val_main_v17_apply]
  refine congrArg₂ (· * ·) ?_ (congrArg x1 ?_)
  · exact gate_apply x0 x2 x3 x4 x5 x6 x7 _ ⟨(i 0).val, idx2_lt0 i⟩ e rfl rfl
  · exact funext fun a => Fin.ext (by match a with | ⟨0, _⟩ => rfl | ⟨1, _⟩ => rfl)

end Cert.ReferenceIdeal.RowValue

end
-- ==== Proof.lean ====
/-
  The kernel and its reference compute the same function on the extended reals.

  Row by row both are a small perceptron applied to the row's scalar input — two hidden layers of twenty units clamped
  at zero, then two output weights — whose two outputs are multiplied by the row's two gate inputs and summed
  (`Cert.RowMlp.rowsOut`). The kernel runs it on 625 blocks of 6400 rows, with the first layer as a plain product
  (its contraction has extent one), the two others as matrix products into a zero accumulator, the weights transposed
  and the biases recast by the host beforehand, and the final sum as a lane sum; the reference runs it on the whole
  arrays with contractions, broadcasts and a reduction. Reading each side at one entry gives the same sums of the same
  products in the same order, so no law of the extended reals beyond `0 + x = x` and the one-term sum is used, and
  the inputs' finiteness is never needed.

  The three frames: the two kernels' are the generated frame proofs; the reference's is its run with the result
  dropped. The idealization rewrote nothing, so there is nothing to preserve. For the value claim the kernel's run ends
  with the result array at `rowsOut` of its arguments (`Cert.KernelIdeal.RowValue.run`), the reference's run at a term that
  is `rowsOut` of its arguments entry by entry (`Cert.ReferenceIdeal.RowValue.result_eq`), and the arguments agree.
-/
import proofs.«167164_j41558103556103_2_alg».proof.Defs
import proofs.«167164_j41558103556103_2_alg».proof.Proof.Gen.Kernel
import proofs.«167164_j41558103556103_2_alg».proof.Proof.Gen.Kernel.Frame
import proofs.«167164_j41558103556103_2_alg».proof.Proof.Gen.KernelIdeal
import proofs.«167164_j41558103556103_2_alg».proof.Proof.Gen.KernelIdeal.Frame
import proofs.«167164_j41558103556103_2_alg».proof.Proof.Gen.ReferenceIdeal
import proofs.«167164_j41558103556103_2_alg».proof.Proof.Gen.Pre_finite_inputs
import proofs.«167164_j41558103556103_2_alg».proof.Proof.Gen.KernelIdeal.Value
import proofs.«167164_j41558103556103_2_alg».proof.Proof.Gen.ReferenceIdeal.Run
import proofs.«167164_j41558103556103_2_alg».proof.Proof.Gen.ReferenceIdeal.Read
import proofs.«167164_j41558103556103_2_alg».proof.Proof.Blocks
import proofs.«167164_j41558103556103_2_alg».proof.Proof.RefRow
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at `rowsOut` of the arguments, and the arguments agree. -/
theorem algebraic : Cert.algebraic_KernelIdeal_ReferenceIdeal := by
  intro m ρ m' ρ' _ hagree
  refine ⟨fun c => Cert.KernelIdeal.RowValue.result m c, Cert.KernelIdeal.RowValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v19_eq, Cert.ReferenceIdeal.RowValue.result_eq, h0, h1, h2, h3, h4, h5, h6, h7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
